-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x512 : Shape := ⟨2, ![512, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x512 .f32) (main_arg1 : IVec S4096x4096 32) (main_arg2 : FVec F S512x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_c_2 : IVec S_ 32 := constantI S_ 32 0#32
  let main_v9 : IVec S4096x4096 32 := broadcastInDim S4096x4096 ![] bcast_S_S4096x4096 main_c_2
  let main_v10 : IVec S4096x4096 1 := cmpi .eq main_arg1 main_v9
  let main_c_3 : IVec S_ 32 := constantI S_ 32 1#32
  let main_v11 : IVec S4096x4096 32 := broadcastInDim S4096x4096 ![] bcast_S_S4096x4096 main_c_3
  let main_v12 : IVec S4096x4096 1 := cmpi .eq main_arg1 main_v11
  let main_v13 : IVec S4096x4096 1 := ori main_v10 main_v12
  let main_c_4 : IVec S_ 1 := constantI S_ 1 1#1
  let main_v14 : IVec S_ 1 := (fun x v => Host.reduce IntOp.andi x v reducesTo_S4096x4096_S_d0_1 h_S_) main_v13 main_c_4
  let main_v15 : IVec S_ 1 := andi main_v8 main_v14
  main_v15
-- ==== Kernel.lean ====
abbrev S4096x512 : Shape := ⟨2, ![4096, 512]⟩
abbrev S4096x4096 : Shape := ⟨2, ![4096, 4096]⟩
abbrev S512x512 : Shape := ⟨2, ![512, 512]⟩
abbrev S512x2048 : Shape := ⟨2, ![512, 2048]⟩
abbrev S2048x512 : Shape := ⟨2, ![2048, 512]⟩
abbrev S1x2048 : Shape := ⟨2, ![1, 2048]⟩
abbrev S1x512 : Shape := ⟨2, ![1, 512]⟩
abbrev S2048 : Shape := ⟨1, ![2048]⟩
abbrev S2048x1 : Shape := ⟨2, ![2048, 1]⟩

abbrev nBuf : Space → Nat
  | .hbm => 4
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096x4096, .i32⟩
  | .hbm, ⟨2, _⟩ => ⟨S512x512, .f32⟩
  | .hbm, ⟨3, _⟩ => ⟨S4096x512, .f32⟩
  | .local _ .vmem, ⟨0, _⟩ => ⟨S512x2048, .i32⟩
  | .local _ .vmem, ⟨1, _⟩ => ⟨S512x2048, .i32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S512x2048_S512x2048_0_0 : ∀ a, (![0, 0] : Fin 2 → Nat) a + S512x2048.size a ≤ S512x2048.size a
  h_S512x2048 : 0 < S512x2048.numel
  inb_S512x512_S512x512_0_0 : ∀ a, (![0, 0] : Fin 2 → Nat) a + S512x512.size a ≤ S512x512.size a
  h_S512x512 : 0 < S512x512.numel
  shapeCasts_S1x2048_S2048 : S1x2048.ShapeCasts S2048
  shapeCasts_S2048_S2048x1 : S2048.ShapeCasts S2048x1
  broadcasts_S2048x1_S2048x512 : S2048x1.Broadcasts S2048x512
  dot_S512x2048_S512x512_S2048x512_0_0_1_1_n_n_wf : DotDims.WF S512x2048 S512x512 S2048x512 [0] [0] [1] [1] [] []
  dot_S1x512_S512x2048_S1x2048_1_0_0_1_n_n_wf : DotDims.WF S1x512 S512x2048 S1x2048 [1] [0] [0] [1] [] []
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x4096.size a
  hwx0_0 : ∀ i : grid0.Coords, EltTy.bits .i32 = 32 ∨ (Rect.block (s := S4096x4096) S512x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S4096x512.size a
  hwx0_3 : ∀ i : grid0.Coords, EltTy.bits .f32 = 32 ∨ (Rect.block (s := S4096x512) S2048x512.size (cc0_transform_3 i) (hinb0_3 i)).WholeWords (EltTy.packing .f32)

variable [Facts₀]

def dot_S512x2048_S512x512_S2048x512_0_0_1_1_n_n : DotDims S512x2048 S512x512 S2048x512 where
  lhsContracting := [0]
  rhsContracting := [0]
  lhsNonContracting := [1]
  rhsNonContracting := [1]
  lhsBatch := []
  rhsBatch := []
  wf := dot_S512x2048_S512x512_S2048x512_0_0_1_1_n_n_wf
def dot_S1x512_S512x2048_S1x2048_1_0_0_1_n_n : DotDims S1x512 S512x2048 S1x2048 where
  lhsContracting := [1]
  rhsContracting := [0]
  lhsNonContracting := [0]
  rhsNonContracting := [1]
  lhsBatch := []
  rhsBatch := []
  wf := dot_S1x512_S512x2048_S1x2048_1_0_0_1_n_n_wf
def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x512 : Shape := ⟨2, ![4096, 512]⟩
abbrev S4096x4096 : Shape := ⟨2, ![4096, 4096]⟩
abbrev S512x512 : Shape := ⟨2, ![512, 512]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .i32⟩
  | .hbm, ⟨2, _⟩ => ⟨S512x512, .f32⟩
  | .hbm, ⟨3, _⟩ => ⟨S_, .i32⟩
  | .hbm, ⟨4, _⟩ => ⟨S4096x4096, .i32⟩
  | .hbm, ⟨5, _⟩ => ⟨S4096x4096, .i1⟩
  | .hbm, ⟨6, _⟩ => ⟨S4096x4096, .f32⟩
  | .hbm, ⟨7, _⟩ => ⟨S_, .i32⟩
  | .hbm, ⟨8, _⟩ => ⟨S4096, .i32⟩
  | .hbm, ⟨9, _⟩ => ⟨S4096, .f32⟩
  | .hbm, ⟨10, _⟩ => ⟨S4096x4096, .f32⟩
  | .hbm, ⟨11, _⟩ => ⟨S4096x512, .f32⟩
  | .hbm, ⟨12, _⟩ => ⟨S4096x1, .f32⟩
  | .hbm, ⟨13, _⟩ => ⟨S4096x512, .f32⟩
  | .hbm, ⟨14, _⟩ => ⟨S4096x512, .f32⟩
  | .hbm, ⟨15, _⟩ => ⟨S512x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d0 : S4096x4096.ReducesTo [0] S4096
  h_S_ : 0 < S_.numel
  transposes_S4096x4096_S4096x4096_1_0 : S4096x4096.Transposes [1, 0] S4096x4096
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  transposes_S512x512_S512x512_1_0 : S512x512.Transposes [1, 0] S512x512
  bcast_S_S4096x512 : S_.BroadcastsInDim S4096x512 (![] : Fin 0 → Fin S4096x512.rank)
  dot_S4096x4096_S4096x512_S4096x512_1_0_0_1_n_n_wf : DotDims.WF S4096x4096 S4096x512 S4096x512 [1] [0] [0] [1] [] []
  dot_S4096x512_S512x512_S4096x512_1_0_0_1_n_n_wf : DotDims.WF S4096x512 S512x512 S4096x512 [1] [0] [0] [1] [] []

variable [Facts₀]

def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

class Facts : Prop extends Facts₀ where

variable [Facts]
-- ==== Proof.Pieces.lean ====
import proofs.«143130_g438086664819_cont_8to1c4_393_10_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

/-!
  What one grid step leaves behind, as values. The kernel keeps two running totals in scratch memory: the
  [2048, 512] neighbour sums and the [1, 2048] degrees. A first step (source tile 0) clears both and adds its tile's
  contribution; a middle step adds its contribution to what the step before left; a last step (source tile 7) does
  the same and then writes the output block from the two finished totals and the weight matrix. Each statement below
  says that the memory a step leaves is the corresponding arithmetic term of the step's input blocks and of the
  totals it found.
-/
namespace Cert.KernelIdeal.Pieces

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords) (arg2 : Memref sig .tc .vmem S512x2048 .i32) (harg2 : arg2.IsWhole) (arg3 : Memref sig .tc .vmem S512x512 .f32) (harg3 : arg3.IsWhole) (arg4 : Memref sig .tc .vmem S512x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole)

/-- A first step leaves, in the neighbour sums, the cleared total plus its tile's contribution. -/
theorem sumsFirst (hc0 : cond0_0 i) (hc1 : ¬cond0_1 i) (x0 : Vec F S512x2048 .i32) (x1 : Vec F S512x512 .f32) (x2 : Vec F S512x512 .f32) :
    sout0_A_0 c i arg2 harg2 arg3 harg3 arg4 harg4 arg5 harg5 arg6 harg6 arg7 harg7 hc0 hc1 x0 x1 x2 = k0_pay4 x0 x1 k0_pay1 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S2048x512) hz, View.readCov_unit_zero (S := S2048x512) _ hz]
  simp only [View.readAt_eq_ld, harg2.read_unread, harg3.read_unread, harg4.read_unread, harg6.read_unread, harg7.read_unread,
    View.ld_unit_zero (S := S512x2048) hz, View.ld_unit_zero (S := S512x512) hz, View.ld_unit_zero (S := S2048x512) hz, View.ld_unit_zero (S := S1x2048) hz]

/-- A first step leaves, in the degrees, the cleared total plus its tile's column counts. -/
theorem degFirst (hc0 : cond0_0 i) (hc1 : ¬cond0_1 i) (x0 : Vec F S512x2048 .i32) (x1 : Vec F S512x512 .f32) (x2 : Vec F S512x512 .f32) :
    sout0_A_1 c i arg2 harg2 arg3 harg3 arg4 harg4 arg5 harg5 arg6 harg6 arg7 harg7 hc0 hc1 x0 x1 x2 = k0_pay5 x0 k0_pay2 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S1x2048) hz, View.readCov_unit_zero (S := S1x2048) _ hz]
  simp only [View.readAt_eq_ld, harg2.read_unread, harg3.read_unread, harg4.read_unread, harg6.read_unread, harg7.read_unread,
    View.ld_unit_zero (S := S512x2048) hz, View.ld_unit_zero (S := S512x512) hz, View.ld_unit_zero (S := S2048x512) hz, View.ld_unit_zero (S := S1x2048) hz]

/-- A middle step adds its tile's contribution to the neighbour sums it found. -/
theorem sumsMiddle (hc0 : ¬cond0_0 i) (hc1 : ¬cond0_1 i) (x0 : Vec F S512x2048 .i32) (x1 : Vec F S512x512 .f32) (x2 : Vec F S512x512 .f32) (xs0 : Vec F S2048x512 .f32) (xs1 : Vec F S1x2048 .f32) :
    sout0_B_0 c i arg2 harg2 arg3 harg3 arg4 harg4 arg5 harg5 arg6 harg6 arg7 harg7 hc0 hc1 x0 x1 x2 xs0 xs1 = k0_pay4 x0 x1 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg6.read_unread, harg7.read_unread,
    View.ld_unit_zero (S := S512x2048) hz, View.ld_unit_zero (S := S512x512) hz, View.ld_unit_zero (S := S2048x512) hz, View.ld_unit_zero (S := S1x2048) hz]

/-- A middle step adds its tile's column counts to the degrees it found. -/
theorem degMiddle (hc0 : ¬cond0_0 i) (hc1 : ¬cond0_1 i) (x0 : Vec F S512x2048 .i32) (x1 : Vec F S512x512 .f32) (x2 : Vec F S512x512 .f32) (xs0 : Vec F S2048x512 .f32) (xs1 : Vec F S1x2048 .f32) :
    sout0_B_1 c i arg2 harg2 arg3 harg3 arg4 harg4 arg5 harg5 arg6 harg6 arg7 harg7 hc0 hc1 x0 x1 x2 xs0 xs1 = k0_pay5 x0 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg6.read_unread, harg7.read_unread,
    View.ld_unit_zero (S := S512x2048) hz, View.ld_unit_zero (S := S512x512) hz, View.ld_unit_zero (S := S2048x512) hz, View.ld_unit_zero (S := S1x2048) hz]

/-- A last step adds its tile's contribution to the neighbour sums it found. -/
theorem sumsLast (hc0 : ¬cond0_0 i) (hc1 : cond0_1 i) (x0 : Vec F S512x2048 .i32) (x1 : Vec F S512x512 .f32) (x2 : Vec F S512x512 .f32) (xs0 : Vec F S2048x512 .f32) (xs1 : Vec F S1x2048 .f32) :
    sout0_C_0 c i arg2 harg2 arg3 harg3 arg4 harg4 arg5 harg5 arg6 harg6 arg7 harg7 hc0 hc1 x0 x1 x2 xs0 xs1 = k0_pay4 x0 x1 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread,
    View.ld_unit_zero (S := S512x2048) hz, View.ld_unit_zero (S := S512x512) hz, View.ld_unit_zero (S := S2048x512) hz, View.ld_unit_zero (S := S1x2048) hz]

/-- A last step adds its tile's column counts to the degrees it found. -/
theorem degLast (hc0 : ¬cond0_0 i) (hc1 : cond0_1 i) (x0 : Vec F S512x2048 .i32) (x1 : Vec F S512x512 .f32) (x2 : Vec F S512x512 .f32) (xs0 : Vec F S2048x512 .f32) (xs1 : Vec F S1x2048 .f32) :
    sout0_C_1 c i arg2 harg2 arg3 harg3 arg4 harg4 arg5 harg5 arg6 harg6 arg7 harg7 hc0 hc1 x0 x1 x2 xs0 xs1 = k0_pay5 x0 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread,
    View.ld_unit_zero (S := S512x2048) hz, View.ld_unit_zero (S := S512x512) hz, View.ld_unit_zero (S := S2048x512) hz, View.ld_unit_zero (S := S1x2048) hz]

/-- A last step writes the output block from the finished degrees, the finished neighbour sums and the weights. -/
theorem outLast (hc0 : ¬cond0_0 i) (hc1 : cond0_1 i) (x0 : Vec F S512x2048 .i32) (x1 : Vec F S512x512 .f32) (x2 : Vec F S512x512 .f32) (xs0 : Vec F S2048x512 .f32) (xs1 : Vec F S1x2048 .f32) :
    out0_C_3 c i arg2 harg2 arg3 harg3 arg4 harg4 arg5 harg5 arg6 harg6 arg7 harg7 hc0 hc1 x0 x1 x2 xs0 xs1 = k0_pay6 (k0_pay5 x0 xs1) (k0_pay4 x0 x1 xs0) x2 := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz, View.readCov_unit_zero (S := S1x2048) _ hz, View.readCov_unit_zero (S := S2048x512) _ hz]
  simp only [View.readAt_eq_ld, harg2.read_unread, harg3.read_unread, harg4.read_unread, harg6.read_unread, harg7.read_unread,
    View.ld_unit_zero (S := S512x2048) hz, View.ld_unit_zero (S := S512x512) hz, View.ld_unit_zero (S := S2048x512) hz, View.ld_unit_zero (S := S1x2048) hz]

end Cert.KernelIdeal.Pieces

end
-- ==== Proof.Steps.lean ====
import proofs.«143130_g438086664819_cont_8to1c4_393_10_alg».proof.Proof.Pieces

noncomputable section

open Idealize.ShloMosaic Idealize.ShloMosaic.TcCoe Idealize.SL.Sem

/-!
  The two running totals from one grid step to the next, and the output block at a last step, as arithmetic terms.
  Grid step t handles destination tile t / 8 and source tile t % 8. At source tile 0 the totals restart from the
  cleared value; at every other source tile they continue from what step t - 1 left; at source tile 7 the output
  block is computed from the totals that very step has just finished.
-/
namespace Cert.KernelIdeal.Steps

open Cert.KernelIdeal Cert.KernelIdeal.Gen

variable {F : FTy → Type} [FloatOps F]
variable (m : (ℓ : Loc nD τ sig) → Buf (Elt F) ℓ)

/-- At source tile 0 both totals are the cleared value plus this tile's contribution. -/
theorem first (c : Dev nD) (t : Fin cfg0.N) (h0 : t.val % 8 = 0) :
    (outsAt0 m c t.val t.isLt).2.1 = k0_pay4 (iblk m c 0 t) (iblk m c 1 t) k0_pay1
    ∧ (outsAt0 m c t.val t.isLt).2.2 = k0_pay5 (iblk m c 0 t) k0_pay2 := by
  have h1 : ¬t.val % 8 = 7 := by omega
  rw [outsAt0_A m c t h0 h1]
  dsimp only
  exact ⟨Pieces.sumsFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t),
    Pieces.degFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)⟩

/-- At any other source tile both totals are what the step before left plus this tile's contribution. -/
theorem next (c : Dev nD) (t : Fin cfg0.N) (h0 : ¬t.val % 8 = 0) :
    (outsAt0 m c t.val t.isLt).2.1 = k0_pay4 (iblk m c 0 t) (iblk m c 1 t) (outsAt0 m c (t.val - 1) (Nat.lt_of_le_of_lt (Nat.sub_le _ _) t.isLt)).2.1
    ∧ (outsAt0 m c t.val t.isLt).2.2 = k0_pay5 (iblk m c 0 t) (outsAt0 m c (t.val - 1) (Nat.lt_of_le_of_lt (Nat.sub_le _ _) t.isLt)).2.2 := by
  by_cases h1 : t.val % 8 = 7
  · rw [outsAt0_C m c t h0 h1]
    dsimp only
    exact ⟨Pieces.sumsLast c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
      Pieces.degLast c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2⟩
  · rw [outsAt0_B m c t h0 h1]
    dsimp only
    exact ⟨Pieces.sumsMiddle c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
      Pieces.degMiddle c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2⟩

/-- At source tile 7 the output block is computed from the two totals as this step leaves them and the weights. -/
theorem last (c : Dev nD) (t : Fin cfg0.N) (h1 : t.val % 8 = 7) :
    (outsAt0 m c t.val t.isLt).1
      = k0_pay6 (outsAt0 m c t.val t.isLt).2.2 (outsAt0 m c t.val t.isLt).2.1 (iblk m c 2 t) := by
  have h0 : ¬t.val % 8 = 0 := by omega
  rw [outsAt0_C m c t h0 h1]
  dsimp only
  rw [Pieces.sumsLast c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
    Pieces.degLast c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2]
  exact Pieces.outLast c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Steps

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.Arith.lean ====
import proofs.«143130_g438086664819_cont_8to1c4_393_10_alg».proof.Proof.Gen.KernelIdeal.Skeleton
import proofs.«143130_g438086664819_cont_8to1c4_393_10_alg».proof.Proof.LibColumns
import Idealize.ShloMosaic.Lib.ValueLayout
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem

/-!
  The three arithmetic terms of a grid step, read at one entry over the extended reals.
  * The neighbour-sum update at (p, d): the old total plus Σ_r a(r, p) · x(r, d) over the 512 rows r of the step's
    adjacency tile and feature tile, a(r, p) the integer entry read as a number (a matrix product contracting the
    row axis of both tiles).
  * The degree update at (0, p): the old total plus Σ_r a(r, p) (a row of ones times the tile).
  * The output block at (p, e): max(Σ_d (sums(p, d) / degree(0, p)) · U(e, d), 0) — the degree row turned into a
    column and spread over the 512 features, an entrywise division, a matrix product contracting the second axis
    of both factors, and the clamp at zero.
  The cleared totals are zero everywhere.
-/
namespace Cert.KernelIdeal.Arith

open Cert.KernelIdeal Cert.KernelIdeal.Gen Idealize.ShloMosaic.ValueIdx
open scoped BigOperators

theorem dSums_lc (i : _) (q : dot_S512x2048_S512x512_S2048x512_0_0_1_1_n_n.contr.Idx) : (dot_S512x2048_S512x512_S2048x512_0_0_1_1_n_n.lhsIdx i q 0).val = (q ⟨0, by decide⟩).val :=
  dot_S512x2048_S512x512_S2048x512_0_0_1_1_n_n.lhsIdx_val_of_single rfl i q
theorem dSums_ln (i : _) (q : dot_S512x2048_S512x512_S2048x512_0_0_1_1_n_n.contr.Idx) : (dot_S512x2048_S512x512_S2048x512_0_0_1_1_n_n.lhsIdx i q 1).val = (i 0).val := by
  unfold DotDims.lhsIdx
  rw [dif_neg (show ¬(1 : Fin S512x2048.rank) ∈ dot_S512x2048_S512x512_S2048x512_0_0_1_1_n_n.lhsBatch by decide), dif_pos (show (1 : Fin S512x2048.rank) ∈ dot_S512x2048_S512x512_S2048x512_0_0_1_1_n_n.lhsNonContracting by decide)]
  rfl
theorem dSums_rc (i : _) (q : dot_S512x2048_S512x512_S2048x512_0_0_1_1_n_n.contr.Idx) : (dot_S512x2048_S512x512_S2048x512_0_0_1_1_n_n.rhsIdx i q 0).val = (q ⟨0, by decide⟩).val :=
  dot_S512x2048_S512x512_S2048x512_0_0_1_1_n_n.rhsIdx_val_of_single rfl i q
theorem dSums_rn (i : _) (q : dot_S512x2048_S512x512_S2048x512_0_0_1_1_n_n.contr.Idx) : (dot_S512x2048_S512x512_S2048x512_0_0_1_1_n_n.rhsIdx i q 1).val = (i 1).val := by
  unfold DotDims.rhsIdx
  rw [dif_neg (show ¬(1 : Fin S512x512.rank) ∈ dot_S512x2048_S512x512_S2048x512_0_0_1_1_n_n.rhsBatch by decide), dif_pos (show (1 : Fin S512x512.rank) ∈ dot_S512x2048_S512x512_S2048x512_0_0_1_1_n_n.rhsNonContracting by decide)]
  rfl

theorem dDeg_lc (i : _) (q : dot_S1x512_S512x2048_S1x2048_1_0_0_1_n_n.contr.Idx) : (dot_S1x512_S512x2048_S1x2048_1_0_0_1_n_n.lhsIdx i q 1).val = (q ⟨0, by decide⟩).val :=
  dot_S1x512_S512x2048_S1x2048_1_0_0_1_n_n.lhsIdx_val_of_single rfl i q
theorem dDeg_ln (i : _) (q : dot_S1x512_S512x2048_S1x2048_1_0_0_1_n_n.contr.Idx) : (dot_S1x512_S512x2048_S1x2048_1_0_0_1_n_n.lhsIdx i q 0).val = (i 0).val := by
  unfold DotDims.lhsIdx
  rw [dif_neg (show ¬(0 : Fin S1x512.rank) ∈ dot_S1x512_S512x2048_S1x2048_1_0_0_1_n_n.lhsBatch by decide), dif_pos (show (0 : Fin S1x512.rank) ∈ dot_S1x512_S512x2048_S1x2048_1_0_0_1_n_n.lhsNonContracting by decide)]
  rfl
theorem dDeg_rc (i : _) (q : dot_S1x512_S512x2048_S1x2048_1_0_0_1_n_n.contr.Idx) : (dot_S1x512_S512x2048_S1x2048_1_0_0_1_n_n.rhsIdx i q 0).val = (q ⟨0, by decide⟩).val :=
  dot_S1x512_S512x2048_S1x2048_1_0_0_1_n_n.rhsIdx_val_of_single rfl i q
theorem dDeg_rn (i : _) (q : dot_S1x512_S512x2048_S1x2048_1_0_0_1_n_n.contr.Idx) : (dot_S1x512_S512x2048_S1x2048_1_0_0_1_n_n.rhsIdx i q 1).val = (i 1).val := by
  unfold DotDims.rhsIdx
  rw [dif_neg (show ¬(1 : Fin S512x2048.rank) ∈ dot_S1x512_S512x2048_S1x2048_1_0_0_1_n_n.rhsBatch by decide), dif_pos (show (1 : Fin S512x2048.rank) ∈ dot_S1x512_S512x2048_S1x2048_1_0_0_1_n_n.rhsNonContracting by decide)]
  rfl

theorem dOut_lc (i : _) (q : dot_S2048x512_S512x512_S2048x512_1_1_0_0_n_n.contr.Idx) : (dot_S2048x512_S512x512_S2048x512_1_1_0_0_n_n.lhsIdx i q 1).val = (q ⟨0, by decide⟩).val :=
  dot_S2048x512_S512x512_S2048x512_1_1_0_0_n_n.lhsIdx_val_of_single rfl i q
theorem dOut_ln (i : _) (q : dot_S2048x512_S512x512_S2048x512_1_1_0_0_n_n.contr.Idx) : (dot_S2048x512_S512x512_S2048x512_1_1_0_0_n_n.lhsIdx i q 0).val = (i 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl
theorem dOut_rc (i : _) (q : dot_S2048x512_S512x512_S2048x512_1_1_0_0_n_n.contr.Idx) : (dot_S2048x512_S512x512_S2048x512_1_1_0_0_n_n.rhsIdx i q 1).val = (q ⟨0, by decide⟩).val :=
  dot_S2048x512_S512x512_S2048x512_1_1_0_0_n_n.rhsIdx_val_of_single rfl i q
theorem dOut_rn (i : _) (q : dot_S2048x512_S512x512_S2048x512_1_1_0_0_n_n.contr.Idx) : (dot_S2048x512_S512x512_S2048x512_1_1_0_0_n_n.rhsIdx i q 0).val = (i 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl

/-- The cleared neighbour sums are zero. -/
theorem clearedSums_apply (j : S2048x512.Idx) : k0_pay1 (F := Ideal) j = 0 := by
  unfold k0_pay1
  exact (congrFun (shapeCast_self _ _) j).trans Ideal.ofBits_zero_f32

/-- The cleared degrees are zero. -/
theorem clearedDeg_apply (j : S1x2048.Idx) : k0_pay2 (F := Ideal) j = 0 := by
  unfold k0_pay2
  exact (congrFun (shapeCast_self _ _) j).trans Ideal.ofBits_zero_f32

/-- The neighbour-sum update at (p, d). -/
theorem sumsUpdate_apply (x0 : Vec Ideal S512x2048 .i32) (x1 : Vec Ideal S512x512 .f32) (acc : Vec Ideal S2048x512 .f32)
    (p : Fin 2048) (d : Fin 512) :
    k0_pay4 (F := Ideal) x0 x1 acc (ix2 p d)
      = acc (ix2 p d) + ∑ r : Fin 512, (((x0 (ix2 r p)).toInt : ℝ) : EReal) * x1 (ix2 r d) := by
  have e1 : k0_pay4 (F := Ideal) x0 x1 acc (ix2 p d)
      = acc (ix2 p d) + FloatOps.matmul (F := Ideal) (φ₁ := .f32) (φ₂ := .f32) dot_S512x2048_S512x512_S2048x512_0_0_1_1_n_n none (sitofp (F := Ideal) .f32 x0) x1 (constant S2048x512 .f32 0x00000000#32) (ix2 p d) := by
    unfold k0_pay4 k0_pay3
    exact congrFun (shapeCast_self _ _) _
  rw [e1, Ideal.matmul_constant_zero_apply, ← Equiv.sum_comp (contrEquiv1 dot_S512x2048_S512x512_S2048x512_0_0_1_1_n_n 512 rfl rfl).symm]
  refine congrArg _ (Finset.sum_congr rfl fun k _ => ?_)
  have hk := contrEquiv1_symm_val dot_S512x2048_S512x512_S2048x512_0_0_1_1_n_n 512 rfl rfl k
  have el : dot_S512x2048_S512x512_S2048x512_0_0_1_1_n_n.lhsIdx (ix2 p d) ((contrEquiv1 dot_S512x2048_S512x512_S2048x512_0_0_1_1_n_n 512 rfl rfl).symm k) = ix2 k p := funext fun a => Fin.ext (by
    match a with
    | ⟨0, _⟩ => exact (dSums_lc _ _).trans hk
    | ⟨1, _⟩ => exact dSums_ln _ _)
  have er : dot_S512x2048_S512x512_S2048x512_0_0_1_1_n_n.rhsIdx (ix2 p d) ((contrEquiv1 dot_S512x2048_S512x512_S2048x512_0_0_1_1_n_n 512 rfl rfl).symm k) = ix2 k d := funext fun a => Fin.ext (by
    match a with
    | ⟨0, _⟩ => exact (dSums_rc _ _).trans hk
    | ⟨1, _⟩ => exact dSums_rn _ _)
  rw [el, er]
  rfl

/-- The degree update at (u, p), u the one row. -/
theorem degUpdate_apply (x0 : Vec Ideal S512x2048 .i32) (acc : Vec Ideal S1x2048 .f32) (u : Fin 1) (p : Fin 2048) :
    k0_pay5 (F := Ideal) x0 acc (ix2 u p) = acc (ix2 u p) + ∑ r : Fin 512, (((x0 (ix2 r p)).toInt : ℝ) : EReal) := by
  have e1 : k0_pay5 (F := Ideal) x0 acc (ix2 u p)
      = acc (ix2 u p) + FloatOps.matmul (F := Ideal) (φ₁ := .f32) (φ₂ := .f32) dot_S1x512_S512x2048_S1x2048_1_0_0_1_n_n none (broadcast (α := Ideal .f32) S1x512 (Scalar.ofBits .f32 0x3F800000#32)) (sitofp (F := Ideal) .f32 x0) (constant S1x2048 .f32 0x00000000#32) (ix2 u p) := by
    unfold k0_pay5 k0_pay3
    exact congrFun (shapeCast_self _ _) _
  rw [e1, Ideal.matmul_constant_zero_apply, ← Equiv.sum_comp (contrEquiv1 dot_S1x512_S512x2048_S1x2048_1_0_0_1_n_n 512 rfl rfl).symm]
  refine congrArg _ (Finset.sum_congr rfl fun k _ => ?_)
  have hk := contrEquiv1_symm_val dot_S1x512_S512x2048_S1x2048_1_0_0_1_n_n 512 rfl rfl k
  have er : dot_S1x512_S512x2048_S1x2048_1_0_0_1_n_n.rhsIdx (ix2 u p) ((contrEquiv1 dot_S1x512_S512x2048_S1x2048_1_0_0_1_n_n 512 rfl rfl).symm k) = ix2 k p := funext fun a => Fin.ext (by
    match a with
    | ⟨0, _⟩ => exact (dDeg_rc _ _).trans hk
    | ⟨1, _⟩ => exact dDeg_rn _ _)
  rw [er]
  show Ideal.ofBits .f32 0x3F800000#32 * (((x0 (ix2 k p)).toInt : ℝ) : EReal) = _
  rw [show Ideal.ofBits .f32 0x3F800000#32 = 1 from IdealRules.sign_bit.ideal_onePat .f32, one_mul]

/-- The output block at (p, e). -/
theorem outBlock_apply (dg : Vec Ideal S1x2048 .f32) (sm : Vec Ideal S2048x512 .f32) (U : Vec Ideal S512x512 .f32)
    (p : Fin 2048) (e : Fin 512) :
    k0_pay6 (F := Ideal) dg sm U (ix2 p e)
      = max (∑ d : Fin 512, Ideal.div (sm (ix2 p d)) (dg (ix2 (0 : Fin 1) p)) * U (ix2 e d)) (Ideal.ofBits .f32 0x00000000#32) := by
  have e1 : k0_pay6 (F := Ideal) dg sm U (ix2 p e)
      = max (FloatOps.matmul (F := Ideal) (φ₁ := .f32) (φ₂ := .f32) dot_S2048x512_S512x512_S2048x512_1_1_0_0_n_n none
          (divf (F := Ideal) (φ := .f32) sm (broadcastTo S2048x512 (shapeCast S2048x1 (shapeCast S2048 dg shapeCasts_S1x2048_S2048) shapeCasts_S2048_S2048x1) broadcasts_S2048x1_S2048x512))
          U (constant S2048x512 .f32 0x00000000#32) (ix2 p e)) (Ideal.ofBits .f32 0x00000000#32) := by
    unfold k0_pay6
    rfl
  rw [e1, Ideal.matmul_constant_zero_apply, ← Equiv.sum_comp (contrEquiv1 dot_S2048x512_S512x512_S2048x512_1_1_0_0_n_n 512 rfl rfl).symm]
  refine congrArg (fun s => max s _) (Finset.sum_congr rfl fun k _ => ?_)
  have hk := contrEquiv1_symm_val dot_S2048x512_S512x512_S2048x512_1_1_0_0_n_n 512 rfl rfl k
  have el : dot_S2048x512_S512x512_S2048x512_1_1_0_0_n_n.lhsIdx (ix2 p e) ((contrEquiv1 dot_S2048x512_S512x512_S2048x512_1_1_0_0_n_n 512 rfl rfl).symm k) = ix2 p k := funext fun a => Fin.ext (by
    match a with
    | ⟨0, _⟩ => exact dOut_ln _ _
    | ⟨1, _⟩ => exact (dOut_lc _ _).trans hk)
  have er : dot_S2048x512_S512x512_S2048x512_1_1_0_0_n_n.rhsIdx (ix2 p e) ((contrEquiv1 dot_S2048x512_S512x512_S2048x512_1_1_0_0_n_n 512 rfl rfl).symm k) = ix2 e k := funext fun a => Fin.ext (by
    match a with
    | ⟨0, _⟩ => exact dOut_rn _ _
    | ⟨1, _⟩ => exact (dOut_rc _ _).trans hk)
  rw [el, er]
  show Ideal.div (sm (ix2 p k)) (broadcastTo S2048x512 (shapeCast S2048x1 (shapeCast S2048 dg shapeCasts_S1x2048_S2048) shapeCasts_S2048_S2048x1) broadcasts_S2048x1_S2048x512 (ix2 p k)) * U (ix2 e k) = _
  rw [Cert.Columns.broadcastTo_a1_ab_apply _ _ p k (0 : Fin 1), Cert.Columns.shapeCast_a_a1_apply _ _ p (0 : Fin 1),
    shapeCast_1a_a_apply _ _ p]

end Cert.KernelIdeal.Arith

end
-- ==== Proof.Spec.lean ====
import Idealize.ShloMosaic.PureOps.Ideal.Laws
import Idealize.ShloMosaic.Lib.ValueIdx

/-!
  The layer as mathematics. For node features x (4096 nodes, 512 features), an adjacency matrix adj with integer
  entries and a weight matrix U, node i's new features are

      relu( Σ_d ( (Σ_k a(k,i) · x(k,d)) / (Σ_k a(k,i)) ) · U(e,d) ),      a(k,i) the entry adj(k,i) read as a number,

  the neighbour sum divided by the degree and then multiplied by the transpose of U. Everything is stated over
  natural-number positions (an array read at a pair of naturals), with sums over initial segments of the naturals:
  a total built tile by tile is then a sum over a longer and longer initial segment.

  When every entry of adj is 0 or 1, the entry read as a number is also the indicator "entry > 0", and the degree
  taken as a 32-bit integer sum (no wrap: at most 4096 ones) and then read as a number is the sum of the entries
  read as numbers.
-/

noncomputable section

namespace Cert.Layer

open Idealize.ShloMosaic Idealize.ShloMosaic.ValueIdx
open scoped BigOperators

variable {α : Type}

/-- A two-axis array read at a pair of natural numbers: the entry when both are in range, a default otherwise. -/
def at2 {n0 n1 : ℕ} (X : (⟨2, ![n0, n1]⟩ : Shape).Idx → α) (dflt : α) (a b : ℕ) : α :=
  if h : a < n0 ∧ b < n1 then X (ix2 ⟨a, h.1⟩ ⟨b, h.2⟩) else dflt

/-- An entry is the array read at the index's two coordinates. -/
theorem at2_val {n0 n1 : ℕ} (X : (⟨2, ![n0, n1]⟩ : Shape).Idx → α) (dflt : α) (j : (⟨2, ![n0, n1]⟩ : Shape).Idx) :
    X j = at2 X dflt (j 0).val (j 1).val := by
  unfold at2
  rw [dif_pos ⟨(j 0).isLt, (j 1).isLt⟩]
  exact congrArg X (eq_ix2 j)

theorem at2_ix2 {n0 n1 : ℕ} (X : (⟨2, ![n0, n1]⟩ : Shape).Idx → α) (dflt : α) (a : Fin n0) (b : Fin n1) :
    X (ix2 a b) = at2 X dflt a.val b.val := by
  unfold at2
  rw [dif_pos ⟨a.isLt, b.isLt⟩]

/-- The adjacency entry (k, i) read as a number. -/
def wgt (adj : (⟨2, ![4096, 4096]⟩ : Shape).Idx → BitVec 32) (k i : ℕ) : EReal :=
  (((at2 adj 0#32 k i).toInt : ℝ) : EReal)

/-- The neighbour sum of node i, feature d, over the first n source nodes. -/
def sums (x : (⟨2, ![4096, 512]⟩ : Shape).Idx → EReal) (adj : (⟨2, ![4096, 4096]⟩ : Shape).Idx → BitVec 32) (n i d : ℕ) : EReal :=
  ∑ k ∈ Finset.range n, wgt adj k i * at2 x 0 k d

/-- The degree of node i counted over the first n source nodes. -/
def degs (adj : (⟨2, ![4096, 4096]⟩ : Shape).Idx → BitVec 32) (n i : ℕ) : EReal :=
  ∑ k ∈ Finset.range n, wgt adj k i

/-- The layer's result at row i, output feature e: the mean of the neighbours' features, times the transpose of U,
    clamped below at zero. -/
def layerAt (x : (⟨2, ![4096, 512]⟩ : Shape).Idx → EReal) (adj : (⟨2, ![4096, 4096]⟩ : Shape).Idx → BitVec 32)
    (U : (⟨2, ![512, 512]⟩ : Shape).Idx → EReal) (i e : ℕ) : EReal :=
  max (∑ d ∈ Finset.range 512, Ideal.div (sums x adj 4096 i d) (degs adj 4096 i) * at2 U 0 e d)
    (Ideal.ofBits .f32 0x00000000#32)

/-- The layer's result as an array. -/
def layer (x : (⟨2, ![4096, 512]⟩ : Shape).Idx → EReal) (adj : (⟨2, ![4096, 4096]⟩ : Shape).Idx → BitVec 32)
    (U : (⟨2, ![512, 512]⟩ : Shape).Idx → EReal) : (⟨2, ![4096, 512]⟩ : Shape).Idx → EReal := fun j =>
  layerAt x adj U (j 0).val (j 1).val

/-- Adding source tile j (512 rows) to the neighbour sum over the first 512·j rows gives the sum over the first 512·(j+1). -/
theorem sums_step (x : (⟨2, ![4096, 512]⟩ : Shape).Idx → EReal) (adj : (⟨2, ![4096, 4096]⟩ : Shape).Idx → BitVec 32)
    (j col d : ℕ) (old : EReal) (blkA : Fin 512 → BitVec 32) (blkX : Fin 512 → EReal)
    (hold : old = sums x adj (512 * j) col d)
    (hA : ∀ r : Fin 512, blkA r = at2 adj 0#32 (512 * j + r.val) col)
    (hX : ∀ r : Fin 512, blkX r = at2 x 0 (512 * j + r.val) d) :
    old + ∑ r : Fin 512, (((blkA r).toInt : ℝ) : EReal) * blkX r = sums x adj (512 * (j + 1)) col d := by
  subst hold
  unfold sums
  rw [Nat.mul_add, Nat.mul_one, Finset.sum_range_add,
    Finset.sum_range (fun r => wgt adj (512 * j + r) col * at2 x 0 (512 * j + r) d)]
  refine congrArg _ (Finset.sum_congr rfl fun r _ => ?_)
  rw [hA r, hX r]
  rfl

/-- The same for the degree. -/
theorem degs_step (adj : (⟨2, ![4096, 4096]⟩ : Shape).Idx → BitVec 32)
    (j col : ℕ) (old : EReal) (blkA : Fin 512 → BitVec 32)
    (hold : old = degs adj (512 * j) col)
    (hA : ∀ r : Fin 512, blkA r = at2 adj 0#32 (512 * j + r.val) col) :
    old + ∑ r : Fin 512, (((blkA r).toInt : ℝ) : EReal) = degs adj (512 * (j + 1)) col := by
  subst hold
  unfold degs
  rw [Nat.mul_add, Nat.mul_one, Finset.sum_range_add, Finset.sum_range (fun r => wgt adj (512 * j + r) col)]
  refine congrArg _ (Finset.sum_congr rfl fun r _ => ?_)
  rw [hA r]
  rfl

/-- The embedding of the reals in the extended reals commutes with finite sums. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A 32-bit sum that cannot wrap is the sum of the words read as naturals. -/
theorem fold_addi_toNat {ι : Type} [DecidableEq ι] (f : ι → BitVec 32) (s : Finset ι)
    (h : ∑ k ∈ s, (f k).toNat < 2 ^ 32) :
    (s.fold IntOp.addi 0#32 f).toNat = ∑ k ∈ s, (f k).toNat := by
  induction s using Finset.induction_on with
  | empty => simp
  | insert a s ha ih =>
    rw [Finset.sum_insert ha] at h
    rw [Finset.fold_insert ha, Finset.sum_insert ha]
    have e := ih (by omega)
    show (f a + s.fold IntOp.addi 0#32 f).toNat = _
    rw [BitVec.toNat_add, e, Nat.mod_eq_of_lt h]

/-- A word that is 0 or 1 reads the same signed and unsigned, and is at most one. -/
theorem bit_toInt (w : BitVec 32) (h : w = 0#32 ∨ w = 1#32) : w.toInt = (w.toNat : ℤ) ∧ w.toNat ≤ 1 := by
  rcases h with rfl | rfl <;> decide

/-- The 32-bit sum of 4096 words, each 0 or 1, read as a signed number, is the sum of the words read as numbers. -/
theorem count_toInt (f : Fin 4096 → BitVec 32) (hf : ∀ k, f k = 0#32 ∨ f k = 1#32) :
    ((((Finset.univ : Finset (Fin 4096)).fold IntOp.addi 0#32 f).toInt : ℝ) : EReal)
      = ∑ k : Fin 4096, (((f k).toInt : ℝ) : EReal) := by
  have hle : ∑ k : Fin 4096, (f k).toNat ≤ 4096 := by
    calc ∑ k : Fin 4096, (f k).toNat ≤ ∑ _k : Fin 4096, 1 := Finset.sum_le_sum fun k _ => (bit_toInt _ (hf k)).2
      _ = 4096 := by simp
  have hn := fold_addi_toNat f Finset.univ (by omega)
  have hi : ((Finset.univ : Finset (Fin 4096)).fold IntOp.addi 0#32 f).toInt = ((∑ k : Fin 4096, (f k).toNat : ℕ) : ℤ) := by
    rw [BitVec.toInt_eq_toNat_of_lt (by omega), hn]
  rw [hi]
  push_cast
  rw [coe_sum]
  refine Finset.sum_congr rfl fun k _ => ?_
  rw [(bit_toInt _ (hf k)).1]
  push_cast
  rfl

/-- For an entry that is 0 or 1, the indicator "entry > 0" read as a number is the entry read as a number. -/
theorem indicator_eq (w : BitVec 32) (h : w = 0#32 ∨ w = 1#32) :
    (((IntOp.cmpi .sgt w 0#32).toNat : ℝ) : EReal) = ((w.toInt : ℝ) : EReal) := by
  rcases h with rfl | rfl
  · have e : (IntOp.cmpi .sgt (0#32 : BitVec 32) 0#32).toNat = 0 := by decide
    have e' : (0#32 : BitVec 32).toInt = 0 := by decide
    rw [e, e']; simp
  · have e : (IntOp.cmpi .sgt (1#32 : BitVec 32) 0#32).toNat = 1 := by decide
    have e' : (1#32 : BitVec 32).toInt = 1 := by decide
    rw [e, e']; simp

end Cert.Layer

end
-- ==== Proof.Running.lean ====
import proofs.«143130_g438086664819_cont_8to1c4_393_10_alg».proof.Proof.Steps
import proofs.«143130_g438086664819_cont_8to1c4_393_10_alg».proof.Proof.Arith
import proofs.«143130_g438086664819_cont_8to1c4_393_10_alg».proof.Proof.Spec

noncomputable section

open Idealize.ShloMosaic Idealize.ShloMosaic.TcCoe Idealize.SL.Sem

/-!
  The running totals are partial sums. Grid step t works on destination tile t / 8 (rows 2048·(t/8) … of the result)
  and source tile t % 8 (rows 512·(t%8) … of the adjacency matrix and of the features). After step t the scratch
  neighbour sums hold, at (p, d), the sum over the first 512·(t%8 + 1) source nodes k of a(k, 2048·(t/8) + p) · x(k, d),
  and the scratch degrees hold at (0, p) the sum of a(k, 2048·(t/8) + p) over the same k: by induction on the step,
  a first step starting from the cleared totals and every other step adding its tile to what the step before left.
  After source tile 7 the sums run over all 4096 source nodes, and the output block written at that step is the
  layer's value on its rows.
-/
namespace Cert.KernelIdeal.Running

open Cert.KernelIdeal Cert.KernelIdeal.Gen Idealize.ShloMosaic.ValueIdx Cert.Layer
open scoped BigOperators

variable (m : (ℓ : Loc nD τ sig) → Buf (Elt Ideal) ℓ)

/-- The three argument arrays as launched, on core c: features, adjacency matrix, weights. -/
abbrev feat (c : Dev nD) : (⟨2, ![4096, 512]⟩ : Shape).Idx → EReal := m ((c : Thread nD τ).loc main_arg0)
abbrev adjm (c : Dev nD) : (⟨2, ![4096, 4096]⟩ : Shape).Idx → BitVec 32 := m ((c : Thread nD τ).loc main_arg1)
abbrev wts (c : Dev nD) : (⟨2, ![512, 512]⟩ : Shape).Idx → EReal := m ((c : Thread nD τ).loc main_arg2)

/-- Which tile of each array a grid step stages: the adjacency tile (t % 8, t / 8), the feature tile (t % 8, 0),
    the whole weight matrix, and the result tile (t / 8, 0). -/
theorem tileIdx : ∀ t : Fin cfg0.N,
    win0_0.index t (0 : Fin 2) = t.val % 8 ∧ win0_0.index t (1 : Fin 2) = t.val / 8
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

/-- The staged adjacency tile at (r, p) is the adjacency matrix at (512·(t%8) + r, 2048·(t/8) + p). -/
theorem adjTile (c : Dev nD) (t : Fin cfg0.N) (r : Fin 512) (p : Fin 2048) :
    (iblk m c 0 t : Vec Ideal S512x2048 .i32) (ix2 r p)
      = at2 (adjm m c) 0#32 (512 * (t.val % 8) + r.val) (2048 * (t.val / 8) + p.val) := by
  obtain ⟨e0, e1, -⟩ := tileIdx t
  unfold iblk
  rw [View.read_apply]
  show V m c main_arg1 _ = _
  refine (at2_val (adjm m c) 0#32 _).trans ?_
  show at2 _ _ (win0_0.index t 0 * 512 + 1 * r.val) (win0_0.index t 1 * 2048 + 1 * p.val) = _
  rw [e0, e1, show t.val % 8 * 512 + 1 * r.val = 512 * (t.val % 8) + r.val by omega,
    show t.val / 8 * 2048 + 1 * p.val = 2048 * (t.val / 8) + p.val by omega]

/-- The staged feature tile at (r, d) is the feature matrix at (512·(t%8) + r, d). -/
theorem featTile (c : Dev nD) (t : Fin cfg0.N) (r : Fin 512) (d : Fin 512) :
    (iblk m c 1 t : Vec Ideal S512x512 .f32) (ix2 r d)
      = at2 (feat m c) 0 (512 * (t.val % 8) + r.val) d.val := by
  obtain ⟨-, -, e2, e3, -⟩ := tileIdx t
  unfold iblk
  rw [View.read_apply]
  show V m c main_arg0 _ = _
  refine (at2_val (feat m c) (0 : EReal) _).trans ?_
  show at2 _ _ (win0_1.index t 0 * 512 + 1 * r.val) (win0_1.index t 1 * 512 + 1 * d.val) = _
  rw [e2, e3, show t.val % 8 * 512 + 1 * r.val = 512 * (t.val % 8) + r.val by omega,
    show 0 * 512 + 1 * d.val = d.val by omega]

/-- The staged weights at (e, d) are the weight matrix at (e, d). -/
theorem weightTile (c : Dev nD) (t : Fin cfg0.N) (e : Fin 512) (d : Fin 512) :
    (iblk m c 2 t : Vec Ideal S512x512 .f32) (ix2 e d) = at2 (wts m c) 0 e.val d.val := by
  obtain ⟨-, -, -, -, e4, e5, -⟩ := tileIdx t
  unfold iblk
  rw [View.read_apply]
  show V m c main_arg2 _ = _
  refine (at2_val (wts m c) (0 : EReal) _).trans ?_
  show at2 _ _ (win0_2.index t 0 * 512 + 1 * e.val) (win0_2.index t 1 * 512 + 1 * d.val) = _
  rw [e4, e5, show 0 * 512 + 1 * e.val = e.val by omega, show 0 * 512 + 1 * d.val = d.val by omega]

/-- After step n the two scratch totals are the partial sums over the first 512·(n%8 + 1) source nodes. -/
def Holds (c : Dev nD) (n : ℕ) (hn : n < cfg0.N) : Prop :=
  (∀ (p : Fin 2048) (d : Fin 512), (outsAt0 m c n hn).2.1 (ix2 p d)
      = sums (feat m c) (adjm m c) (512 * (n % 8 + 1)) (2048 * (n / 8) + p.val) d.val)
  ∧ (∀ (u : Fin 1) (p : Fin 2048), (outsAt0 m c n hn).2.2 (ix2 u p)
      = degs (adjm m c) (512 * (n % 8 + 1)) (2048 * (n / 8) + p.val))

/-- A step at source tile 0 starts both partial sums. -/
theorem holds_first (c : Dev nD) (t : Fin cfg0.N) (h0 : t.val % 8 = 0) : Holds m c t.val t.isLt := by
  obtain ⟨es, ed⟩ := Steps.first m c t h0
  constructor
  · intro p d
    refine (congrFun es (ix2 p d)).trans ?_
    refine (Arith.sumsUpdate_apply (iblk m c 0 t) (iblk m c 1 t) (k0_pay1 (F := Ideal)) p d).trans ?_
    exact sums_step (feat m c) (adjm m c) (t.val % 8) (2048 * (t.val / 8) + p.val) d.val _
      (fun r => (iblk m c 0 t : Vec Ideal S512x2048 .i32) (ix2 r p)) (fun r => (iblk m c 1 t : Vec Ideal S512x512 .f32) (ix2 r d))
      ((Arith.clearedSums_apply _).trans (by rw [h0]; simp [sums]))
      (fun r => adjTile m c t r p) (fun r => featTile m c t r d)
  · intro u p
    refine (congrFun ed (ix2 u p)).trans ?_
    refine (Arith.degUpdate_apply (iblk m c 0 t) (k0_pay2 (F := Ideal)) u p).trans ?_
    exact degs_step (adjm m c) (t.val % 8) (2048 * (t.val / 8) + p.val) _
      (fun r => (iblk m c 0 t : Vec Ideal S512x2048 .i32) (ix2 r p))
      ((Arith.clearedDeg_apply _).trans (by rw [h0]; simp [degs]))
      (fun r => adjTile m c t r p)

/-- A step at any other source tile extends both partial sums by its tile. -/
theorem holds_next (c : Dev nD) (t : Fin cfg0.N) (h0 : ¬t.val % 8 = 0)
    (ih : Holds m c (t.val - 1) (Nat.lt_of_le_of_lt (Nat.sub_le _ _) t.isLt)) : Holds m c t.val t.isLt := by
  obtain ⟨es, ed⟩ := Steps.next m c t h0
  have a1 : (t.val - 1) % 8 + 1 = t.val % 8 := by omega
  have a2 : (t.val - 1) / 8 = t.val / 8 := by omega
  constructor
  · intro p d
    refine (congrFun es (ix2 p d)).trans ?_
    refine (Arith.sumsUpdate_apply (iblk m c 0 t) (iblk m c 1 t) _ p d).trans ?_
    exact sums_step (feat m c) (adjm m c) (t.val % 8) (2048 * (t.val / 8) + p.val) d.val _
      (fun r => (iblk m c 0 t : Vec Ideal S512x2048 .i32) (ix2 r p)) (fun r => (iblk m c 1 t : Vec Ideal S512x512 .f32) (ix2 r d))
      ((ih.1 p d).trans (by rw [a1, a2]))
      (fun r => adjTile m c t r p) (fun r => featTile m c t r d)
  · intro u p
    refine (congrFun ed (ix2 u p)).trans ?_
    refine (Arith.degUpdate_apply (iblk m c 0 t) _ u p).trans ?_
    exact degs_step (adjm m c) (t.val % 8) (2048 * (t.val / 8) + p.val) _
      (fun r => (iblk m c 0 t : Vec Ideal S512x2048 .i32) (ix2 r p))
      ((ih.2 u p).trans (by rw [a1, a2]))
      (fun r => adjTile m c t r p)

/-- The partial sums after every step, by induction on the step. -/
theorem totals (c : Dev nD) : ∀ (n : ℕ) (hn : n < cfg0.N), Holds m c n hn
  | 0, hn => holds_first m c ⟨0, hn⟩ rfl
  | n + 1, hn => by
    by_cases h0 : (n + 1) % 8 = 0
    · exact holds_first m c ⟨n + 1, hn⟩ h0
    · exact holds_next m c ⟨n + 1, hn⟩ h0 (totals c n (Nat.lt_of_succ_lt hn))

/-- The output block a step at source tile 7 writes is the layer's value on rows 2048·(t/8) + p. -/
theorem outBlock (c : Dev nD) (t : Fin cfg0.N) (h1 : t.val % 8 = 7) (p : Fin 2048) (e : Fin 512) :
    (outsAt0 m c t.val t.isLt).1 (ix2 p e)
      = layerAt (feat m c) (adjm m c) (wts m c) (2048 * (t.val / 8) + p.val) e.val := by
  refine (congrFun (Steps.last m c t h1) (ix2 p e)).trans ?_
  refine (Arith.outBlock_apply (outsAt0 m c t.val t.isLt).2.2 (outsAt0 m c t.val t.isLt).2.1 (iblk m c 2 t) p e).trans ?_
  unfold layerAt
  rw [Finset.sum_range (fun d => Ideal.div (sums (feat m c) (adjm m c) 4096 (2048 * (t.val / 8) + p.val) d)
    (degs (adjm m c) 4096 (2048 * (t.val / 8) + p.val)) * at2 (wts m c) 0 e.val d)]
  refine congrArg (fun s => max s _) (Finset.sum_congr rfl fun d _ => ?_)
  rw [(totals m c t.val t.isLt).1 p d, (totals m c t.val t.isLt).2 0 p, weightTile m c t e d,
    show 512 * (t.val % 8 + 1) = 4096 by omega]

end Cert.KernelIdeal.Running

end
-- ==== Proof.Whole.lean ====
import proofs.«143130_g438086664819_cont_8to1c4_393_10_alg».proof.Proof.Running
import proofs.«143130_g438086664819_cont_8to1c4_393_10_alg».proof.Proof.Gen.KernelIdeal.Value
import Idealize.ShloMosaic.Lib.Pipeline.Value

noncomputable section

open Idealize.ShloMosaic Idealize.ShloMosaic.TcCoe Idealize.SL.Sem

/-!
  The whole result array. The result is written back twice, after grid steps 7 and 15 (source tile 7 of each of the
  two destination tiles); step 8·q + 7 writes rows 2048·q … 2048·q + 2047, and what it writes is the layer's value on
  those rows. The two row tiles cover all 4096 rows, so after the run the result array is the layer.
-/
namespace Cert.KernelIdeal.Whole

open Cert.KernelIdeal Cert.KernelIdeal.Gen Idealize.ShloMosaic.ValueIdx Cert.Layer
open Idealize.ShloMosaic.Pipeline (Dat)

variable (m : (ℓ : Loc nD τ sig) → Buf (Elt Ideal) ℓ) (ρ : Dev nD → PrngReg)

/-- The layer of the argument arrays as launched. -/
abbrev result (c : Dev nD) : Buf (Elt Ideal) ((c : Thread nD τ).loc main_v0) :=
  layer (Running.feat m c) (Running.adjm m c) (Running.wts m c)

/-- What a write-back step writes is the layer read through the step's row tile. -/
theorem flushed_eq (c : Dev nD) (t : Fin cfg0.N) (hf : (cfg0.win 3).flush t = true) :
    (dats m 0 c).flushed 3 t = ((cfg0.win 3).blk t).view.read (Elt Ideal) (result m c) := by
  have h1 : t.val % 8 = 7 := (flush0_3 t).mp hf
  obtain ⟨-, -, -, -, -, -, e6, e7⟩ := Running.tileIdx t
  show (cfg0.win 3).cut (grid0.coords t) ((dats m 0 c).after 3 t) = _
  rw [after0_3]
  funext y
  obtain ⟨p, e, rfl⟩ : ∃ (p : Fin 2048) (e : Fin 512), y = ix2 p e := ⟨y 0, y 1, eq_ix2 (n0 := 2048) (n1 := 512) y⟩
  show (outsAt0 m c t.val t.isLt).1 (ix2 p e)
    = layerAt (Running.feat m c) (Running.adjm m c) (Running.wts m c)
        (win0_3.index t 0 * 2048 + 1 * p.val) (win0_3.index t 1 * 512 + 1 * e.val)
  rw [Running.outBlock m c t h1 p e, e6, e7, show t.val / 8 * 2048 + 1 * p.val = 2048 * (t.val / 8) + p.val by omega,
    show 0 * 512 + 1 * e.val = e.val by omega]

/-- A row index lies in a step's row tile iff each coordinate lies in the tile's range on its axis. -/
theorem mem_tile (t : Fin cfg0.N) (i : S4096x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v0).slice (win0_3.rect t)).set ↔ _
  rw [View.set_slice_whole, Rect.mem_set_unit]
  exact Iff.rfl

/-- After the run the result array is the layer: row r lies in the tile step 8·(r / 2048) + 7 writes back. -/
theorem final (c : Dev nD) : (dats m 0 c).arrAt 3 cfg0.N = result m c :=
  (dats m 0 c).arrAt_eq_of_cover 3 (result m c) (flushed_eq m c) fun i => by
    have hN : cfg0.N = 16 := N_0
    have hi0 : (i 0).val < 4096 := (i 0).isLt
    have hi1 : (i 1).val < 512 := (i 1).isLt
    obtain ⟨t, ht⟩ : ∃ t : Fin cfg0.N, t.val = 8 * ((i 0).val / 2048) + 7 := ⟨⟨8 * ((i 0).val / 2048) + 7, by omega⟩, rfl⟩
    obtain ⟨-, -, -, -, -, -, e6, e7⟩ := Running.tileIdx t
    refine ⟨t, (flush0_3 t).mpr (by omega), ?_⟩
    rw [mem_tile]
    intro a
    match a with
    | ⟨0, _⟩ =>
      show win0_3.index t 0 * 2048 ≤ (i 0).val ∧ (i 0).val < win0_3.index t 0 * 2048 + 2048
      rw [e6]; omega
    | ⟨1, _⟩ =>
      show win0_3.index t 1 * 512 ≤ (i 1).val ∧ (i 1).val < win0_3.index t 1 * 512 + 512
      rw [e7]; omega

/-- The kernel's run: the result array ends at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Whole

end
-- ==== Proof.Reference.lean ====
import proofs.«143130_g438086664819_cont_8to1c4_393_10_alg».proof.Proof.Gen.ReferenceIdeal.Read
import proofs.«143130_g438086664819_cont_8to1c4_393_10_alg».proof.Proof.Spec
import Idealize.ShloMosaic.PureOps.Reduce

noncomputable section

open Idealize.ShloMosaic Idealize.ShloMosaic.TcCoe Idealize.SL.Sem

/-!
  The reference computes the layer. Read one entry at a time over the extended reals: the mask is the indicator
  "adjacency entry > 0", transposed; the neighbour sums are its product with the features; the degree is the integer
  column sum of the adjacency matrix read as a number, spread over the features; then the entrywise division, the
  product with the transposed weights and the clamp at zero. When every adjacency entry is 0 or 1 the indicator is
  the entry itself and the integer column sum cannot wrap, so mask and degree are the entries read as numbers and
  their sum, which is how the layer is stated.
-/
namespace Cert.ReferenceIdeal.RefValue

open Cert.ReferenceIdeal Cert.ReferenceIdeal.Gen Cert.ReferenceIdeal.Read Idealize.ShloMosaic.ValueIdx Cert.Layer
open scoped BigOperators

variable (x0 : (⟨S4096x512, .f32⟩ : BufTy).Contents (Elt Ideal)) (x1 : (⟨S4096x4096, .i32⟩ : BufTy).Contents (Elt Ideal))
  (x2 : (⟨S512x512, .f32⟩ : BufTy).Contents (Elt Ideal))

/-- The transposed mask at (i, k) is the adjacency entry (k, i) read as a number, when that entry is 0 or 1. -/
theorem mask_apply (hb : ∀ j, x1 j = 0#32 ∨ x1 j = 1#32) (i : S4096x512.Idx) (k : Fin 4096) :
    val_main_v5 (F := Ideal) x1 (lidx_main_v6 i k) = wgt x1 k.val (i 0).val := by
  rw [val_main_v5_apply, val_main_v2_apply, val_main_v1_apply, val_main_v0_apply, val_main_c_apply]
  show (((IntOp.cmpi .sgt (x1 (idx_main_v5 (lidx_main_v6 i k))) 0#32).toNat : ℝ) : EReal) = _
  rw [indicator_eq _ (hb _), at2_val x1 0#32 (idx_main_v5 (lidx_main_v6 i k))]
  rfl

/-- The neighbour sums: the mask's product with the features, over all 4096 source nodes. -/
theorem sums_apply (hb : ∀ j, x1 j = 0#32 ∨ x1 j = 1#32) (i : S4096x512.Idx) :
    val_main_v6 (F := Ideal) x0 x1 i = sums x0 x1 4096 (i 0).val (i 1).val := by
  rw [val_main_v6_apply]
  unfold sums
  rw [Finset.sum_range (fun k => wgt x1 k (i 0).val * at2 x0 0 k (i 1).val)]
  refine Finset.sum_congr rfl fun k _ => ?_
  rw [mask_apply x1 hb i k, at2_val x0 0 (ridx_main_v6 i k)]

/-- Reducing the row axis of a [4096, 4096] array leaves its columns. -/
theorem colReduces : S4096x4096.Reduces [0] S4096 := by decide

/-- The degree spread over the features: the integer column sum read as a number is the sum of the entries read as
    numbers, when every entry is 0 or 1. -/
theorem degs_apply (hb : ∀ j, x1 j = 0#32 ∨ x1 j = 1#32) (i : S4096x512.Idx) :
    val_main_v8 (F := Ideal) x1 i = degs x1 4096 (i 0).val := by
  rw [val_main_v8_apply, val_main_v7_apply, val_main_v4_apply]
  unfold val_main_v3
  rw [Host.reduce_eq_fold_single IntOp.addi x1 _ reducesTo_S4096x4096_S4096_d0 colReduces h_S_]
  refine (count_toInt (fun k => x1 (colReduces.lift (idx_main_v7 (idx_main_v8 i)) k)) (fun k => hb _)).trans ?_
  unfold degs
  rw [Finset.sum_range (fun k => wgt x1 k (i 0).val)]
  refine Finset.sum_congr rfl fun k _ => ?_
  rw [at2_val x1 0#32 (colReduces.lift (idx_main_v7 (idx_main_v8 i)) k)]
  rfl

/-- The reference's result is the layer. -/
theorem result_eq (hb : ∀ j, x1 j = 0#32 ∨ x1 j = 1#32) :
    val_main_v12 (F := Ideal) x0 x1 x2 = layer x0 x1 x2 := by
  funext i
  rw [val_main_v12_apply, val_main_v11_apply]
  show max _ (Ideal.ofBits .f32 0x00000000#32) = _
  unfold layer layerAt
  rw [Finset.sum_range (fun d => Ideal.div (sums x0 x1 4096 (i 0).val d) (degs x1 4096 (i 0).val) * at2 x2 0 (i 1).val d)]
  refine congrArg (fun s => max s _) (Finset.sum_congr rfl fun k _ => ?_)
  rw [val_main_v9_apply, val_main_v10_apply, sums_apply x0 x1 hb, degs_apply x1 hb, at2_val x2 0 (idx_main_v10 (ridx_main_v11 i k))]
  rfl

end Cert.ReferenceIdeal.RefValue

end
-- ==== Proof.Pre.lean ====
import proofs.«143130_g438086664819_cont_8to1c4_393_10_alg».proof.Pre_finite_inputs
import proofs.«143130_g438086664819_cont_8to1c4_393_10_alg».proof.Proof.Gen.Pre_finite_inputs
import Idealize.ShloMosaic.Lib.ReduceAll
import Idealize.ShloMosaic.Lib.ValueIdx

noncomputable section

open Idealize.ShloMosaic Idealize.ShloMosaic.TcCoe Idealize.SL.Sem

/-!
  What the precondition says of the adjacency matrix. The precondition is a conjunction of three "all entries"
  tests; the third one tests, entry by entry, "entry = 0 or entry = 1". If the whole precondition evaluates to true,
  every entry of the adjacency matrix is 0 or 1.
-/
namespace Cert.Pre_finite_inputs.Binary

open Cert.Pre_finite_inputs Idealize.ShloMosaic Idealize.ShloMosaic.ValueIdx

instance : Subsingleton S_.Idx := ⟨fun a b => funext fun d => d.elim0⟩

/-- Under the precondition every adjacency entry is 0 or 1. -/
theorem entries {F : FTy → Type} [FloatOps F] (x0 : FVec F S4096x512 .f32) (x1 : IVec S4096x4096 32) (x2 : FVec F S512x512 .f32)
    (h : fn (F := F) x0 x1 x2 = fun _ => 1#1) (j : S4096x4096.Idx) : x1 j = 0#32 ∨ x1 j = 1#32 := by
  have h0 := congrFun h ix0
  dsimp only [fn] at h0
  obtain ⟨-, h14⟩ := IntOp.andi_eq_one.1 h0
  have hj := Host.reduce_andi_all _ _ _ _ _ h14 j
  rcases IntOp.ori_eq_one.1 hj with e | e
  · exact Or.inl (IntOp.cmpi_eq.1 e)
  · exact Or.inr (IntOp.cmpi_eq.1 e)

end Cert.Pre_finite_inputs.Binary

end
-- ==== Proof.lean ====
/-
  The graph layer computed tile by tile equals the graph layer computed at once.

  Node i's new features are relu( U · (Σ_{k : adj(k,i) > 0} x(k)) / deg(i) ), deg(i) the number of neighbours. The
  reference forms the mask "adj > 0", one big product mask^T · x, the integer column sums of adj as degrees, the
  division, the product with U^T and the clamp at zero. The kernel walks a 2 × 8 grid: for each of two destination
  tiles of 2048 nodes it runs over eight source tiles of 512 nodes, adding adj_tile^T · x_tile to a running
  [2048, 512] total and the tile's column sums to a running [1, 2048] degree, and after the last source tile divides,
  multiplies by U^T, clamps and writes the block. It uses the adjacency entry itself as the weight (not the
  indicator) and sums the entries as real numbers.

  Over the extended reals the two agree when every adjacency entry is 0 or 1 — the domain on which "sum of entries"
  is "number of neighbours": then the entry is its own indicator, the 32-bit column sum (at most 4096) does not
  wrap, and a sum over 4096 source nodes taken in eight consecutive runs of 512 is the sum over all of them, because
  addition on the extended reals is associative and commutative. Nothing else is needed: both sides divide the same
  sums by the same degrees, so no finiteness of x or U enters. The precondition's third conjunct says exactly that
  every adjacency entry is 0 or 1.

  Modules: Spec (the layer as a formula, and the facts about 0/1 words), Pieces and Steps (what a grid step leaves in
  the scratch totals and the output block, as arithmetic terms), Arith (those terms read at one entry), Running (the
  totals are partial sums, by induction on the step), Whole (the result array after the run), Reference (the
  reference's term is the layer), Pre (the precondition read back).
-/
import proofs.«143130_g438086664819_cont_8to1c4_393_10_alg».proof.Defs
import proofs.«143130_g438086664819_cont_8to1c4_393_10_alg».proof.Proof.Gen.Kernel
import proofs.«143130_g438086664819_cont_8to1c4_393_10_alg».proof.Proof.Gen.Kernel.Skeleton
import proofs.«143130_g438086664819_cont_8to1c4_393_10_alg».proof.Proof.Gen.Kernel.Launch
import proofs.«143130_g438086664819_cont_8to1c4_393_10_alg».proof.Proof.Gen.Kernel.Points
import proofs.«143130_g438086664819_cont_8to1c4_393_10_alg».proof.Proof.Gen.Kernel.Frame
import proofs.«143130_g438086664819_cont_8to1c4_393_10_alg».proof.Proof.Gen.KernelIdeal
import proofs.«143130_g438086664819_cont_8to1c4_393_10_alg».proof.Proof.Gen.KernelIdeal.Skeleton
import proofs.«143130_g438086664819_cont_8to1c4_393_10_alg».proof.Proof.Gen.KernelIdeal.Launch
import proofs.«143130_g438086664819_cont_8to1c4_393_10_alg».proof.Proof.Gen.KernelIdeal.Points
import proofs.«143130_g438086664819_cont_8to1c4_393_10_alg».proof.Proof.Gen.KernelIdeal.Frame
import proofs.«143130_g438086664819_cont_8to1c4_393_10_alg».proof.Proof.Gen.ReferenceIdeal
import proofs.«143130_g438086664819_cont_8to1c4_393_10_alg».proof.Proof.Gen.Pre_finite_inputs
import proofs.«143130_g438086664819_cont_8to1c4_393_10_alg».proof.Proof.Gen.KernelIdeal.Value
import proofs.«143130_g438086664819_cont_8to1c4_393_10_alg».proof.Proof.Gen.ReferenceIdeal.Run
import proofs.«143130_g438086664819_cont_8to1c4_393_10_alg».proof.Proof.Gen.ReferenceIdeal.Read
import proofs.«143130_g438086664819_cont_8to1c4_393_10_alg».proof.Proof.Whole
import proofs.«143130_g438086664819_cont_8to1c4_393_10_alg».proof.Proof.Reference
import proofs.«143130_g438086664819_cont_8to1c4_393_10_alg».proof.Proof.Pre
import Idealize.ShloMosaic.Adequacy
import Idealize.ShloMosaic.Init

noncomputable section

namespace Cert.Proof

open Idealize.ShloMosaic Idealize.ShloMosaic.TcCoe Idealize.SL.Sem

/-- Both kernels run to completion with their arguments unchanged. -/
theorem frame_k : Cert.frame_Kernel := fun m ρ _ => Cert.Kernel.Gen.frame m ρ
theorem frame_ki : Cert.frame_KernelIdeal := fun m ρ _ => Cert.KernelIdeal.Gen.frame m ρ

/-- The reference runs to completion with its arguments unchanged: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel at the extended reals rewrote no operation. -/
theorem preserves : Cert.preserves_Kernel_KernelIdeal := trivial

/-- From memories that agree on the arguments, with every adjacency entry 0 or 1, the kernel's result array and the
    reference's both end at the layer of the arguments. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  have hb := Cert.Pre_finite_inputs.Binary.entries _ _ _ (hpre c)
  rw [Cert.ReferenceIdeal.Read.val_main_v12_eq, (hagree c).1, (hagree c).2.1, (hagree c).2.2]
  exact Cert.ReferenceIdeal.RefValue.result_eq _ _ _ hb

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
